-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x32x32x64x64 : Shape := ⟨5, ![16, 32, 32, 64, 64]⟩
abbrev S32x1x1x1 : Shape := ⟨4, ![32, 1, 1, 1]⟩
abbrev S_ : Shape := ⟨0, ![]⟩

class Facts : Prop where
  bcast_S_S16x32x32x64x64 : S_.BroadcastsInDim S16x32x32x64x64 (![] : Fin 0 → Fin S16x32x32x64x64.rank)
  reducesTo_S16x32x32x64x64_S_d0_1_2_3_4 : S16x32x32x64x64.ReducesTo [0, 1, 2, 3, 4] S_
  h_S_ : 0 < S_.numel
  bcast_S_S32x1x1x1 : S_.BroadcastsInDim S32x1x1x1 (![] : Fin 0 → Fin S32x1x1x1.rank)
  reducesTo_S32x1x1x1_S_d0_1_2_3 : S32x1x1x1.ReducesTo [0, 1, 2, 3] S_

variable [Facts]

def fn {F : FTy → Type} [FloatOps F] (main_arg0 : FVec F S16x32x32x64x64 .f32) (main_arg1 : FVec F S32x1x1x1 .f32) : IVec S_ 1 :=
  let main_v0 : FVec F S16x32x32x64x64 .f32 := Host.absf main_arg0
  let main_cst : FVec F S_ .f32 := constant S_ .f32 0x7F800000#32
  let main_v1 : FVec F S16x32x32x64x64 .f32 := broadcastInDim S16x32x32x64x64 ![] bcast_S_S16x32x32x64x64 main_cst
  let main_v2 : IVec S16x32x32x64x64 1 := cmpf .olt main_v0 main_v1
  let main_c : IVec S_ 1 := constantI S_ 1 1#1
  let main_v3 : IVec S_ 1 := (fun x v => Host.reduce IntOp.andi x v reducesTo_S16x32x32x64x64_S_d0_1_2_3_4 h_S_) main_v2 main_c
  let main_v4 : FVec F S32x1x1x1 .f32 := Host.absf main_arg1
  let main_cst_0 : FVec F S_ .f32 := constant S_ .f32 0x7F800000#32
  let main_v5 : FVec F S32x1x1x1 .f32 := broadcastInDim S32x1x1x1 ![] bcast_S_S32x1x1x1 main_cst_0
  let main_v6 : IVec S32x1x1x1 1 := cmpf .olt main_v4 main_v5
  let main_c_1 : IVec S_ 1 := constantI S_ 1 1#1
  let main_v7 : IVec S_ 1 := (fun x v => Host.reduce IntOp.andi x v reducesTo_S32x1x1x1_S_d0_1_2_3 h_S_) main_v6 main_c_1
  let main_v8 : IVec S_ 1 := andi main_v3 main_v7
  main_v8
-- ==== Kernel.lean ====
abbrev S16x32x32x64x64 : Shape := ⟨5, ![16, 32, 32, 64, 64]⟩
abbrev S32x1x1x1 : Shape := ⟨4, ![32, 1, 1, 1]⟩
abbrev S16x1x1x1 : Shape := ⟨4, ![16, 1, 1, 1]⟩
abbrev S1x8x32x64x64 : Shape := ⟨5, ![1, 8, 32, 64, 64]⟩
abbrev S8x1x1x1 : Shape := ⟨4, ![8, 1, 1, 1]⟩
abbrev S1x1x1x1 : Shape := ⟨4, ![1, 1, 1, 1]⟩
abbrev S8x32x64x64 : Shape := ⟨4, ![8, 32, 64, 64]⟩
abbrev S8x32x64x32x2 : Shape := ⟨5, ![8, 32, 64, 32, 2]⟩
abbrev S8x32x64x32 : Shape := ⟨4, ![8, 32, 64, 32]⟩
abbrev S8x32x32x2x32 : Shape := ⟨5, ![8, 32, 32, 2, 32]⟩
abbrev S8x32x32x32 : Shape := ⟨4, ![8, 32, 32, 32]⟩
abbrev S8x16x2x32x32 : Shape := ⟨5, ![8, 16, 2, 32, 32]⟩
abbrev S8x16x32x32 : Shape := ⟨4, ![8, 16, 32, 32]⟩
abbrev S8x16x32 : Shape := ⟨3, ![8, 16, 32]⟩
abbrev S8x16 : Shape := ⟨2, ![8, 16]⟩
abbrev S8 : Shape := ⟨1, ![8]⟩
abbrev S8x1 : Shape := ⟨2, ![8, 1]⟩
abbrev S1 : Shape := ⟨1, ![1]⟩
abbrev S1x1 : Shape := ⟨2, ![1, 1]⟩

abbrev nBuf : Space → Nat
  | .hbm => 3
  | .vmem => 6
  | .smem => 0
  | _ => 0

abbrev bufTy : (tb : Table) → Fin (tcTables nBuf tb) → BufTy
  | .hbm, ⟨0, _⟩ => ⟨S16x32x32x64x64, .f32⟩
  | .hbm, ⟨1, _⟩ => ⟨S32x1x1x1, .f32⟩
  | .hbm, ⟨2, _⟩ => ⟨S16x1x1x1, .f32⟩
  | .local _ .vmem, ⟨0, _⟩ => ⟨S1x8x32x64x64, .f32⟩
  | .local _ .vmem, ⟨1, _⟩ => ⟨S1x8x32x64x64, .f32⟩
  | .local _ .vmem, ⟨2, _⟩ => ⟨S8x1x1x1, .f32⟩
  | .local _ .vmem, ⟨3, _⟩ => ⟨S8x1x1x1, .f32⟩
  | .local _ .vmem, ⟨4, _⟩ => ⟨S1x1x1x1, .f32⟩
  | .local _ .vmem, ⟨5, _⟩ => ⟨S1x1x1x1, .f32⟩
  | _, _ => ⟨S16x32x32x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x8x32x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x1x1x1_S1x1x1x1_0_0_0_0 : ∀ a, (![0, 0, 0, 0] : Fin 4 → Nat) a + S1x1x1x1.size a ≤ S1x1x1x1.size a
  h_S1x1x1x1 : 0 < S1x1x1x1.numel
  inb_S1x8x32x64x64_S1x8x32x64x64_0_0_0_0_0 : ∀ a, (![0, 0, 0, 0, 0] : Fin 5 → Nat) a + S1x8x32x64x64.size a ≤ S1x8x32x64x64.size a
  h_S1x8x32x64x64 : 0 < S1x8x32x64x64.numel
  shapeCasts_S1x8x32x64x64_S8x32x64x64 : S1x8x32x64x64.ShapeCasts S8x32x64x64
  shapeCasts_S8x32x64x64_S8x32x64x32x2 : S8x32x64x64.ShapeCasts S8x32x64x32x2
  reduces_S8x32x64x32x2_S8x32x64x32 : S8x32x64x32x2.Reduces [4] S8x32x64x32
  shapeCasts_S8x32x64x32_S8x32x32x2x32 : S8x32x64x32.ShapeCasts S8x32x32x2x32
  reduces_S8x32x32x2x32_S8x32x32x32 : S8x32x32x2x32.Reduces [3] S8x32x32x32
  shapeCasts_S8x32x32x32_S8x16x2x32x32 : S8x32x32x32.ShapeCasts S8x16x2x32x32
  reduces_S8x16x2x32x32_S8x16x32x32 : S8x16x2x32x32.Reduces [2] S8x16x32x32
  reduces_S8x16x32x32_S8x16x32 : S8x16x32x32.Reduces [3] S8x16x32
  reduces_S8x16x32_S8x16 : S8x16x32.Reduces [2] S8x16
  reduces_S8x16_S8 : S8x16.Reduces [1] S8
  shapeCasts_S8_S8x1 : S8.ShapeCasts S8x1
  inb_S8x1x1x1_S8x1x1x1_0_0_0_0 : ∀ a, (![0, 0, 0, 0] : Fin 4 → Nat) a + S8x1x1x1.size a ≤ S8x1x1x1.size a
  h_S8x1x1x1 : 0 < S8x1x1x1.numel
  shapeCasts_S8x1x1x1_S8x1 : S8x1x1x1.ShapeCasts S8x1
  reduces_S8x1_S1 : S8x1.Reduces [0] S1
  shapeCasts_S1_S1x1 : S1.ShapeCasts S1x1
  shapeCasts_S1x1x1x1_S1x1x1x1 : S1x1x1x1.ShapeCasts S1x1x1x1
  shapeCasts_S1x1_S1x1x1x1 : S1x1.ShapeCasts S1x1x1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x32x64x64.size a ≤ S16x32x32x64x64.size a
  hwx0_0 : ∀ i : grid0.Coords, EltTy.bits .f32 = 32 ∨ (Rect.block (s := S16x32x32x64x64) S1x8x32x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x1x1x1.size a ≤ S32x1x1x1.size a
  hwx0_1 : ∀ i : grid0.Coords, EltTy.bits .f32 = 32 ∨ (Rect.block (s := S32x1x1x1) S8x1x1x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1x1.size a ≤ S16x1x1x1.size a
  hwx0_2 : ∀ i : grid0.Coords, EltTy.bits .f32 = 32 ∨ (Rect.block (s := S16x1x1x1) S1x1x1x1.size (cc0_transform_2 i) (hinb0_2 i)).WholeWords (EltTy.packing .f32)

variable [Facts₀]

abbrev win0_0 : Pipeline.Window sig grid0 :=
  Pipeline.Window.ofSpec (Memref.whole main_arg0) S1x8x32x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x1x1x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x32x32x64x64 : Shape := ⟨5, ![16, 32, 32, 64, 64]⟩
abbrev S32x1x1x1 : Shape := ⟨4, ![32, 1, 1, 1]⟩
abbrev S_ : Shape := ⟨0, ![]⟩
abbrev S16x32x16x2x32x2x32x2 : Shape := ⟨8, ![16, 32, 16, 2, 32, 2, 32, 2]⟩
abbrev S16x32x16x32x32 : Shape := ⟨5, ![16, 32, 16, 32, 32]⟩
abbrev S16x32 : Shape := ⟨2, ![16, 32]⟩
abbrev S1x32 : Shape := ⟨2, ![1, 32]⟩
abbrev S16 : Shape := ⟨1, ![16]⟩
abbrev S16x1x1x1 : Shape := ⟨4, ![16, 1, 1, 1]⟩

abbrev nBuf : Space → Nat
  | .hbm => 19
  | .vmem => 0
  | .smem => 0
  | _ => 0

abbrev bufTy : (tb : Table) → Fin (tcTables nBuf tb) → BufTy
  | .hbm, ⟨0, _⟩ => ⟨S16x32x32x64x64, .f32⟩
  | .hbm, ⟨1, _⟩ => ⟨S32x1x1x1, .f32⟩
  | .hbm, ⟨2, _⟩ => ⟨S_, .f32⟩
  | .hbm, ⟨3, _⟩ => ⟨S16x32x32x64x64, .f32⟩
  | .hbm, ⟨4, _⟩ => ⟨S16x32x32x64x64, .f32⟩
  | .hbm, ⟨5, _⟩ => ⟨S16x32x16x2x32x2x32x2, .f32⟩
  | .hbm, ⟨6, _⟩ => ⟨S_, .f32⟩
  | .hbm, ⟨7, _⟩ => ⟨S16x32x16x32x32, .f32⟩
  | .hbm, ⟨8, _⟩ => ⟨S_, .f32⟩
  | .hbm, ⟨9, _⟩ => ⟨S16x32, .f32⟩
  | .hbm, ⟨10, _⟩ => ⟨S_, .f32⟩
  | .hbm, ⟨11, _⟩ => ⟨S16x32, .f32⟩
  | .hbm, ⟨12, _⟩ => ⟨S16x32, .f32⟩
  | .hbm, ⟨13, _⟩ => ⟨S1x32, .f32⟩
  | .hbm, ⟨14, _⟩ => ⟨S16x32, .f32⟩
  | .hbm, ⟨15, _⟩ => ⟨S16x32, .f32⟩
  | .hbm, ⟨16, _⟩ => ⟨S_, .f32⟩
  | .hbm, ⟨17, _⟩ => ⟨S16, .f32⟩
  | .hbm, ⟨18, _⟩ => ⟨S16x1x1x1, .f32⟩
  | _, _ => ⟨S16x32x32x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_cst_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]

class Facts₀ : Prop where
  bcast_S_S16x32x32x64x64 : S_.BroadcastsInDim S16x32x32x64x64 (![] : Fin 0 → Fin S16x32x32x64x64.rank)
  shapeCasts_S16x32x32x64x64_S16x32x16x2x32x2x32x2 : S16x32x32x64x64.ShapeCasts S16x32x16x2x32x2x32x2
  reducesTo_S16x32x16x2x32x2x32x2_S16x32x16x32x32_d3_5_7 : S16x32x16x2x32x2x32x2.ReducesTo [3, 5, 7] S16x32x16x32x32
  h_S_ : 0 < S_.numel
  reducesTo_S16x32x16x32x32_S16x32_d2_3_4 : S16x32x16x32x32.ReducesTo [2, 3, 4] S16x32
  bcast_S_S16x32 : S_.BroadcastsInDim S16x32 (![] : Fin 0 → Fin S16x32.rank)
  shapeCasts_S32x1x1x1_S1x32 : S32x1x1x1.ShapeCasts S1x32
  bcast_S1x32_S16x32_0_1 : S1x32.BroadcastsInDim S16x32 (![0, 1] : Fin 2 → Fin S16x32.rank)
  reducesTo_S16x32_S16_d1 : S16x32.ReducesTo [1] S16
  shapeCasts_S16_S16x1x1x1 : S16.ShapeCasts S16x1x1x1

variable [Facts₀]

class Facts : Prop extends Facts₀ where

variable [Facts]
-- ==== Proof.LibFolds.lean ====
/-
  Folds and sums over the fibres of a reduction, and maxima of extended reals.

  A reduction over several axes reads, at a result index `j`, the source indices whose kept coordinates are `j`
  (the fibre of `j`). When the fibre is listed without repetition by a map `e` from a finite type, a sum or a
  commutative, associative fold over the fibre is the same sum or fold over that type. A fold of `max` from `⊥`
  commutes with every monotone map that fixes `⊥`, and over a nonempty family of real numbers it is a real number.
-/
import Idealize.ShloMosaic.PureOps.Ideal

namespace Cert.LibFolds

open Finset

section Fibre

variable {ι τ κ : Type} [Fintype ι] [Fintype κ]

/-- The fibre of `j` under `drop` is the image of a map `e` that lands in it and reaches all of it. -/
theorem filter_eq_image [DecidableEq ι] (drop : ι → τ) (j : τ) [DecidablePred fun i => drop i = j] (e : κ → ι)
    (hmem : ∀ k, drop (e k) = j) (hsurj : ∀ i, drop i = j → ∃ k, e k = i) :
    (univ.filter fun i => drop i = j) = univ.image e := by
  ext i
  simp only [mem_filter, mem_univ, true_and, mem_image]
  exact ⟨hsurj i, fun ⟨k, hk⟩ => hk ▸ hmem k⟩

/-- A sum over the fibre is the sum over the parameters of an injective listing of it. -/
theorem sum_fibre {M : Type} [AddCommMonoid M] (drop : ι → τ) (j : τ) [DecidablePred fun i => drop i = j] (e : κ → ι)
    (hinj : Function.Injective e) (hmem : ∀ k, drop (e k) = j) (hsurj : ∀ i, drop i = j → ∃ k, e k = i) (x : ι → M) :
    ∑ i ∈ univ.filter (fun i => drop i = j), x i = ∑ k, x (e k) := by
  classical
  rw [filter_eq_image drop j e hmem hsurj, sum_image fun a _ b _ h => hinj h]

/-- A commutative, associative fold over the fibre is the fold over the parameters of an injective listing of it. -/
theorem fold_fibre {α : Type} (op : α → α → α) [Std.Commutative op] [Std.Associative op] (b : α) (drop : ι → τ) (j : τ)
    [DecidablePred fun i => drop i = j] (e : κ → ι)
    (hinj : Function.Injective e) (hmem : ∀ k, drop (e k) = j) (hsurj : ∀ i, drop i = j → ∃ k, e k = i) (x : ι → α) :
    (univ.filter fun i => drop i = j).fold op b x = univ.fold op b (fun k => x (e k)) := by
  classical
  rw [filter_eq_image drop j e hmem hsurj, fold_image fun a _ b _ h => hinj h]
  rfl

end Fibre

section Max

variable {ι : Type}

/-- A fold of `max` from `⊥` commutes with a monotone map that fixes `⊥`. -/
theorem fold_max_map (g : EReal → EReal) (hg : Monotone g) (hb : g ⊥ = ⊥) (s : Finset ι) (f : ι → EReal) :
    s.fold max ⊥ (fun k => g (f k)) = g (s.fold max ⊥ f) := by
  classical
  induction s using Finset.induction_on with
  | empty => simp [hb]
  | insert a s ha ih => rw [fold_insert ha, fold_insert ha, ih, hg.map_max]

/-- A fold of `max` from `⊥` over pairs is the fold over the first coordinate of the folds over the second. -/
theorem fold_max_prod {α β : Type} [Fintype α] [Fintype β] (f : α × β → EReal) :
    (univ : Finset (α × β)).fold max ⊥ f = univ.fold max ⊥ fun a => univ.fold max ⊥ fun b => f (a, b) := by
  refine le_antisymm ?_ ?_
  · rw [fold_max_le]
    refine ⟨bot_le, fun p _ => ?_⟩
    rw [le_fold_max]
    refine Or.inr ⟨p.1, mem_univ _, ?_⟩
    rw [le_fold_max]
    exact Or.inr ⟨p.2, mem_univ _, le_rfl⟩
  · rw [fold_max_le]
    refine ⟨bot_le, fun a _ => ?_⟩
    rw [fold_max_le]
    refine ⟨bot_le, fun b _ => ?_⟩
    rw [le_fold_max]
    exact Or.inr ⟨(a, b), mem_univ _, le_rfl⟩

/-- An extended real that is a real number. -/
def IsReal (x : EReal) : Prop := ∃ r : ℝ, x = (r : EReal)

/-- The maximum of a nonempty finite family of real numbers is a real number. -/
theorem isReal_fold_max (s : Finset ι) (hs : s.Nonempty) (f : ι → EReal) (hf : ∀ k ∈ s, IsReal (f k)) :
    IsReal (s.fold max ⊥ f) := by
  classical
  induction hs using Finset.Nonempty.cons_induction with
  | singleton a =>
    obtain ⟨r, hr⟩ := hf a (mem_singleton_self a)
    exact ⟨r, by rw [fold_singleton, hr, max_eq_left bot_le]⟩
  | cons a s ha hs ih =>
    obtain ⟨r, hr⟩ := hf a (mem_cons_self a s)
    obtain ⟨p, hp⟩ := ih fun k hk => hf k (mem_cons.2 (Or.inr hk))
    exact ⟨max r p, by rw [fold_cons, hr, hp]; exact (EReal.coe_strictMono.monotone.map_max).symm⟩

end Max

/-- The sum of real numbers, read in the extended reals, is the sum of their readings. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [sum_insert ha, sum_insert ha, EReal.coe_add, ih]

end Cert.LibFolds
-- ==== Proof.PoolLaw.lean ====
/-
  The arithmetic that joins the two programs, on one image `o : channel → depth → row → column → value` with a
  per-channel `bias`.

  Both programs take, for each channel and each 2×2×2 window of the image, the largest entry of the window
  (`pooled`), add these over the 16·32·32 windows of the channel, scale, add the channel's bias, and add the
  results over the 32 channels. One program halves every entry first and divides the channel's sum by 16384; the
  other multiplies the channel's sum by 2⁻¹⁵, and adds the channels in four groups of eight. Halving is monotone,
  so it commutes with taking the largest entry; and when every entry is a real number so is every window's
  maximum, and then (Σ p/2) / 16384 = (Σ p) · 2⁻¹⁵ is arithmetic of real numbers.
-/
import proofs.«157001_j25056839205222_2_alg».proof.Proof.LibFolds
import Idealize.ShloMosaic.PureOps.Ideal.Laws

noncomputable section

namespace Cert.Pool

open Idealize.ShloMosaic Finset Cert.LibFolds

/-! ## The constants the programs spell -/

theorem ofBits_neg_inf : Ideal.ofBits .f32 0xFF800000#32 = ⊥ := by
  simp [Ideal.ofBits, Ideal.ieee]

theorem ofBits_two : Ideal.ofBits .f32 0x40000000#32 = ((2 : ℝ) : EReal) := by
  simp [Ideal.ofBits, Ideal.ieee, -EReal.coe_mul]; norm_num

theorem ofBits_16384 : Ideal.ofBits .f32 0x46800000#32 = ((16384 : ℝ) : EReal) := by
  simp [Ideal.ofBits, Ideal.ieee, -EReal.coe_mul]; norm_num

theorem ofBits_scale : Ideal.ofBits .f32 0x38000000#32 = ((1 / 32768 : ℝ) : EReal) := by
  simp [Ideal.ofBits, Ideal.ieee, -EReal.coe_mul]; norm_num

/-! ## Windows -/

/-- Entry `d` (0 or 1) of window `p` along an axis of 32 entries cut into 16 windows. -/
def up16 (p : Fin 16) (d : Fin 2) : Fin 32 := ⟨2 * p.val + d.val, by have := p.isLt; have := d.isLt; omega⟩
/-- Entry `d` (0 or 1) of window `p` along an axis of 64 entries cut into 32 windows. -/
def up32 (p : Fin 32) (d : Fin 2) : Fin 64 := ⟨2 * p.val + d.val, by have := p.isLt; have := d.isLt; omega⟩

/-- The largest of the eight entries of a 2×2×2 window, taken one axis at a time. -/
def win (f : Fin 2 → Fin 2 → Fin 2 → EReal) : EReal :=
  univ.fold max ⊥ fun dd => univ.fold max ⊥ fun hh => univ.fold max ⊥ fun ww => f dd hh ww

/-- The same maximum taken over the eight entries at once. -/
theorem fold_win (f : Fin 2 → Fin 2 → Fin 2 → EReal) :
    (univ : Finset (Fin 2 × Fin 2 × Fin 2)).fold max ⊥ (fun k => f k.1 k.2.1 k.2.2) = win f := by
  rw [fold_max_prod]
  refine congrArg (fold max ⊥ · univ) (funext fun dd => ?_)
  exact fold_max_prod fun q : Fin 2 × Fin 2 => f dd q.1 q.2

/-- A window of real numbers has a real maximum. -/
theorem isReal_win (f : Fin 2 → Fin 2 → Fin 2 → EReal) (hf : ∀ a b c, IsReal (f a b c)) : IsReal (win f) :=
  isReal_fold_max _ univ_nonempty _ fun a _ => isReal_fold_max _ univ_nonempty _ fun b _ =>
    isReal_fold_max _ univ_nonempty _ fun c _ => hf a b c

/-- The pooled value of one channel `x` at window `k = (pd, ph, pw)`. -/
def pooled (x : Fin 32 → Fin 64 → Fin 64 → EReal) (k : Fin 16 × Fin 32 × Fin 32) : EReal :=
  win fun dd hh ww => x (up16 k.1 dd) (up32 k.2.1 hh) (up32 k.2.2 ww)

theorem isReal_pooled (x : Fin 32 → Fin 64 → Fin 64 → EReal) (hx : ∀ d h w, IsReal (x d h w)) (k) : IsReal (pooled x k) :=
  isReal_win _ fun _ _ _ => hx _ _ _

/-! ## Halving commutes with the maximum -/

theorem halve_mono : Monotone fun x : EReal => Ideal.div x (Ideal.ofBits .f32 0x40000000#32) := by
  intro x y hxy
  simp only [ofBits_two, Ideal.div_coe (by norm_num : (2 : ℝ) ≠ 0)]
  exact mul_le_mul_of_nonneg_right hxy (by exact_mod_cast (by norm_num : (0 : ℝ) ≤ 1 / 2))

theorem halve_bot : Ideal.div ⊥ (Ideal.ofBits .f32 0x40000000#32) = ⊥ := by
  simp only [ofBits_two, Ideal.div_coe (by norm_num : (2 : ℝ) ≠ 0)]
  exact EReal.bot_mul_coe_of_pos (by norm_num)

/-- The largest of the halved entries of a window, taken over all eight at once, is half the window's maximum. -/
theorem fold_halved (f : Fin 2 → Fin 2 → Fin 2 → EReal) :
    (univ : Finset (Fin 2 × Fin 2 × Fin 2)).fold max ⊥
        (fun k : Fin 2 × Fin 2 × Fin 2 => Ideal.div (f k.1 k.2.1 k.2.2) (Ideal.ofBits .f32 0x40000000#32))
      = Ideal.div (win f) (Ideal.ofBits .f32 0x40000000#32) := by
  rw [← fold_win]
  exact fold_max_map _ halve_mono halve_bot univ fun k : Fin 2 × Fin 2 × Fin 2 => f k.1 k.2.1 k.2.2

/-! ## One channel -/

/-- For a channel whose window maxima `P` are real: the sum of the maxima times 2⁻¹⁵ is the sum of the halved maxima
    (from zero) divided by 16384. -/
theorem channel_law {K : Type} [Fintype K] (P : K → EReal) (hP : ∀ k, IsReal (P k)) :
    (∑ k, P k) * Ideal.ofBits .f32 0x38000000#32
      = Ideal.div (Ideal.ofBits .f32 0x00000000#32 + ∑ k, Ideal.div (P k) (Ideal.ofBits .f32 0x40000000#32))
          (Ideal.ofBits .f32 0x46800000#32) := by
  choose p hp using hP
  simp only [hp, ofBits_scale, ofBits_two, ofBits_16384, Ideal.ofBits_zero_f32, zero_add,
    Ideal.div_coe (by norm_num : (2 : ℝ) ≠ 0), Ideal.div_coe (by norm_num : (16384 : ℝ) ≠ 0)]
  simp only [← EReal.coe_mul, ← coe_sum]
  refine congrArg _ ?_
  rw [← Finset.sum_mul]; ring

/-! ## One image -/

/-- Channel `c` of group `j` (four groups of eight channels). -/
def ch (j : Fin 4) (c : Fin 8) : Fin 32 := ⟨j.val * 8 + c.val, by have := j.isLt; have := c.isLt; omega⟩

/-- What the blocked program adds for group `j` of channels: over the group's eight channels, the sum over depth,
    row and column windows of the window maxima, times 2⁻¹⁵, plus the channel's bias. -/
def group (o : Fin 32 → Fin 32 → Fin 64 → Fin 64 → EReal) (bias : Fin 32 → EReal) (j : Fin 4) : EReal :=
  ∑ c : Fin 8, ((∑ pd : Fin 16, ∑ ph : Fin 32, ∑ pw : Fin 32, pooled (o (ch j c)) (pd, ph, pw))
      * Ideal.ofBits .f32 0x38000000#32 + bias (ch j c))

/-- The blocked program's result for the image: zero, then the four groups added one after the other. -/
def blocked (o : Fin 32 → Fin 32 → Fin 64 → Fin 64 → EReal) (bias : Fin 32 → EReal) : EReal :=
  Ideal.ofBits .f32 0x00000000#32 + group o bias 0 + group o bias 1 + group o bias 2 + group o bias 3

/-- The whole-array program's result for the image: from zero, the sum over the 32 channels of the sum (from zero) of
    the halved window maxima divided by 16384, plus the channel's bias. -/
def whole (o : Fin 32 → Fin 32 → Fin 64 → Fin 64 → EReal) (bias : Fin 32 → EReal) : EReal :=
  Ideal.ofBits .f32 0x00000000#32 + ∑ c : Fin 32,
    (Ideal.div (Ideal.ofBits .f32 0x00000000#32
        + ∑ k : Fin 16 × Fin 32 × Fin 32, Ideal.div (pooled (o c) k) (Ideal.ofBits .f32 0x40000000#32))
      (Ideal.ofBits .f32 0x46800000#32) + bias c)

theorem ch_eq (j : Fin 4) (c : Fin 8) : ch j c = finProdFinEquiv (j, c) :=
  Fin.ext (by simp [ch, finProdFinEquiv]; omega)

/-- A sum over the 32 channels is the sum over the four groups of the sums over each group's eight channels. -/
theorem sum_channels (T : Fin 32 → EReal) : ∑ c : Fin 32, T c = ∑ j : Fin 4, ∑ c : Fin 8, T (ch j c) := by
  rw [← Fintype.sum_prod_type' (f := fun j c => T (ch j c))]
  exact (Fintype.sum_equiv (finProdFinEquiv : Fin 4 × Fin 8 ≃ Fin 32) (fun x => T (ch x.1 x.2)) T
    (fun x => by rw [ch_eq])).symm

/-- On an image of real numbers the two results agree. -/
theorem blocked_eq_whole (o : Fin 32 → Fin 32 → Fin 64 → Fin 64 → EReal) (bias : Fin 32 → EReal)
    (ho : ∀ c d h w, IsReal (o c d h w)) : blocked o bias = whole o bias := by
  have hg : ∀ j, group o bias j = ∑ c : Fin 8,
      (Ideal.div (Ideal.ofBits .f32 0x00000000#32
        + ∑ k : Fin 16 × Fin 32 × Fin 32, Ideal.div (pooled (o (ch j c)) k) (Ideal.ofBits .f32 0x40000000#32))
      (Ideal.ofBits .f32 0x46800000#32) + bias (ch j c)) := by
    intro j
    refine Finset.sum_congr rfl fun c _ => congrArg (· + bias (ch j c)) ?_
    rw [← channel_law _ (isReal_pooled _ (ho _)), Fintype.sum_prod_type]
    refine congrArg (· * _) (Finset.sum_congr rfl fun pd _ => ?_)
    rw [Fintype.sum_prod_type]
  unfold blocked whole
  rw [hg, hg, hg, hg]
  rw [sum_channels, Fin.sum_univ_four]
  simp only [add_assoc]

end Cert.Pool

end
-- ==== Proof.KernelPay.lean ====
/-
  What one run of the kernel's body computes from its blocks, read at an index.

  The body holds one image's eight channels `x0`, their biases `x1`, and the running total `acc`. It takes the
  maximum over column pairs, then row pairs, then depth pairs (each pair made adjacent by a re-layout of the block),
  adds the window maxima over columns, rows and depths, scales each channel's sum by 2⁻¹⁵, adds the channel's bias,
  adds the eight channels, and adds that to the running total.
-/
import proofs.«157001_j25056839205222_2_alg».proof.Proof.Gen.KernelIdeal.Skeleton
import proofs.«157001_j25056839205222_2_alg».proof.Proof.PoolLaw
import Idealize.ShloMosaic.Lib.Pipeline.Value
import Idealize.ShloMosaic.Lib.ValueIdx
import Idealize.ShloMosaic.PureOps.Ideal.Laws

noncomputable section

namespace Cert.KernelIdeal.Pay

open Cert.KernelIdeal Cert.KernelIdeal.Gen Idealize.ShloMosaic Idealize.ShloMosaic.ValueIdx Finset Cert.Pool

/-! ## Re-layouts read at an index -/

/-- Dropping the block's leading unit axis. -/
theorem cast4 (x0 : FVec Ideal S1x8x32x64x64 .f32) (c : Fin 8) (d : Fin 32) (h w : Fin 64) :
    shapeCast S8x32x64x64 x0 shapeCasts_S1x8x32x64x64_S8x32x64x64 (ix4 c d h w) = x0 (ix5 0 c d h w) :=
  shapeCast_apply x0 _ (ix4 c d h w) (ix5 0 c d h w) (by
    rewrite [Shape.rowMajor_val_five, Shape.rowMajor_val_four]
    show ((((0 * 8 + c.val) * 32 + d.val) * 64 + h.val) * 64 + w.val) = ((c.val * 32 + d.val) * 64 + h.val) * 64 + w.val
    omega)

/-- Columns split into 32 pairs: entry `ww` of pair `pw` is column `2·pw + ww`. -/
theorem cast5 (v : FVec Ideal S8x32x64x64 .f32) (c : Fin 8) (d : Fin 32) (h : Fin 64) (pw : Fin 32) (ww : Fin 2) :
    shapeCast S8x32x64x32x2 v shapeCasts_S8x32x64x64_S8x32x64x32x2 (ix5 c d h pw ww) = v (ix4 c d h (up32 pw ww)) :=
  shapeCast_apply v _ (ix5 c d h pw ww) (ix4 c d h (up32 pw ww)) (by
    rewrite [Shape.rowMajor_val_five, Shape.rowMajor_val_four]
    show ((c.val * 32 + d.val) * 64 + h.val) * 64 + (2 * pw.val + ww.val)
      = (((c.val * 32 + d.val) * 64 + h.val) * 32 + pw.val) * 2 + ww.val
    omega)

/-- Rows split into 32 pairs: entry `hh` of pair `ph` is row `2·ph + hh`. -/
theorem cast7 (v : FVec Ideal S8x32x64x32 .f32) (c : Fin 8) (d : Fin 32) (ph : Fin 32) (hh : Fin 2) (pw : Fin 32) :
    shapeCast S8x32x32x2x32 v shapeCasts_S8x32x64x32_S8x32x32x2x32 (ix5 c d ph hh pw) = v (ix4 c d (up32 ph hh) pw) :=
  shapeCast_apply v _ (ix5 c d ph hh pw) (ix4 c d (up32 ph hh) pw) (by
    rewrite [Shape.rowMajor_val_five, Shape.rowMajor_val_four]
    show ((c.val * 32 + d.val) * 64 + (2 * ph.val + hh.val)) * 32 + pw.val
      = (((c.val * 32 + d.val) * 32 + ph.val) * 2 + hh.val) * 32 + pw.val
    omega)

/-- Depths split into 16 pairs: entry `dd` of pair `pd` is depth `2·pd + dd`. -/
theorem cast9 (v : FVec Ideal S8x32x32x32 .f32) (c : Fin 8) (pd : Fin 16) (dd : Fin 2) (ph pw : Fin 32) :
    shapeCast S8x16x2x32x32 v shapeCasts_S8x32x32x32_S8x16x2x32x32 (ix5 c pd dd ph pw) = v (ix4 c (up16 pd dd) ph pw) :=
  shapeCast_apply v _ (ix5 c pd dd ph pw) (ix4 c (up16 pd dd) ph pw) (by
    rewrite [Shape.rowMajor_val_five, Shape.rowMajor_val_four]
    show ((c.val * 32 + (2 * pd.val + dd.val)) * 32 + ph.val) * 32 + pw.val
      = (((c.val * 16 + pd.val) * 2 + dd.val) * 32 + ph.val) * 32 + pw.val
    omega)

/-- A vector of eight read as a column. -/
theorem cast14 (v : FVec Ideal S8 .f32) (c : Fin 8) (z : Fin 1) :
    shapeCast S8x1 v shapeCasts_S8_S8x1 (ix2 c z) = v (ix1 c) :=
  shapeCast_apply v _ (ix2 c z) (ix1 c) (by
    rewrite [Shape.rowMajor_val_one, Shape.rowMajor_val_two]
    show c.val = c.val * 1 + z.val
    have := z.isLt; omega)

/-- The biases read as a column. -/
theorem cast18 (x1 : FVec Ideal S8x1x1x1 .f32) (c : Fin 8) (z : Fin 1) :
    shapeCast S8x1 x1 shapeCasts_S8x1x1x1_S8x1 (ix2 c z) = x1 (ix4 c 0 0 0) :=
  shapeCast_apply x1 _ (ix2 c z) (ix4 c 0 0 0) (by
    rewrite [Shape.rowMajor_val_four, Shape.rowMajor_val_two]
    show ((c.val * 1 + 0) * 1 + 0) * 1 + 0 = c.val * 1 + z.val
    have := z.isLt; omega)

/-- A single entry read as a 1×1 matrix. -/
theorem cast21 (v : FVec Ideal S1 .f32) (j : S1x1.Idx) :
    shapeCast S1x1 v shapeCasts_S1_S1x1 j = v (ix1 0) :=
  shapeCast_apply v _ j (ix1 0) (by
    rewrite [Shape.rowMajor_val_one, Shape.rowMajor_val_two]
    have h0 : (j 0).val < 1 := (j 0).isLt
    have h1 : (j 1).val < 1 := (j 1).isLt
    show 0 = (j 0).val * 1 + (j 1).val
    omega)

/-- A 1×1 matrix read as a 1×1×1×1 block. -/
theorem cast24 (v : FVec Ideal S1x1 .f32) (i : S1x1x1x1.Idx) :
    shapeCast S1x1x1x1 v shapeCasts_S1x1_S1x1x1x1 i = v (ix2 0 0) :=
  shapeCast_apply v _ i (ix2 0 0) (by
    rewrite [Shape.rowMajor_val_two, Shape.rowMajor_val_four]
    have h0 : (i 0).val < 1 := (i 0).isLt
    have h1 : (i 1).val < 1 := (i 1).isLt
    have h2 : (i 2).val < 1 := (i 2).isLt
    have h3 : (i 3).val < 1 := (i 3).isLt
    show 0 * 1 + 0 = (((i 0).val * 1 + (i 1).val) * 1 + (i 2).val) * 1 + (i 3).val
    omega)

/-! ## Reductions read at an index -/

/-- The maximum over a column pair. -/
theorem maxW (v : FVec Ideal S8x32x64x32x2 .f32) (hφ : FKind.Formats .f32)
    (hacc : (0xFF800000#32 : BitVec 32) = FKind.maximumf.neutral .f32 hφ) (c : Fin 8) (d : Fin 32) (h : Fin 64) (pw : Fin 32) :
    multiReduction .maximumf [4] S8x32x64x32 v 0xFF800000#32 reduces_S8x32x64x32x2_S8x32x64x32 hφ hacc (ix4 c d h pw)
      = univ.fold max ⊥ fun ww : Fin 2 => v (ix5 c d h pw ww) := by
  refine (Ideal.multiReduction_maximumf_single v _ reduces_S8x32x64x32x2_S8x32x64x32 hφ hacc (ix4 c d h pw)).trans ?_
  rw [Ideal.ofBits_def, ofBits_neg_inf]
  refine congrArg (fun f => univ.fold max ⊥ f) (funext fun ww => congrArg v (funext fun a => Fin.ext ?_))
  match a with
  | ⟨0, _⟩ => rfl | ⟨1, _⟩ => rfl | ⟨2, _⟩ => rfl | ⟨3, _⟩ => rfl | ⟨4, _⟩ => rfl

/-- The maximum over a row pair. -/
theorem maxH (v : FVec Ideal S8x32x32x2x32 .f32) (hφ : FKind.Formats .f32)
    (hacc : (0xFF800000#32 : BitVec 32) = FKind.maximumf.neutral .f32 hφ) (c : Fin 8) (d : Fin 32) (ph pw : Fin 32) :
    multiReduction .maximumf [3] S8x32x32x32 v 0xFF800000#32 reduces_S8x32x32x2x32_S8x32x32x32 hφ hacc (ix4 c d ph pw)
      = univ.fold max ⊥ fun hh : Fin 2 => v (ix5 c d ph hh pw) := by
  refine (Ideal.multiReduction_maximumf_single v _ reduces_S8x32x32x2x32_S8x32x32x32 hφ hacc (ix4 c d ph pw)).trans ?_
  rw [Ideal.ofBits_def, ofBits_neg_inf]
  refine congrArg (fun f => univ.fold max ⊥ f) (funext fun hh => congrArg v (funext fun a => Fin.ext ?_))
  match a with
  | ⟨0, _⟩ => rfl | ⟨1, _⟩ => rfl | ⟨2, _⟩ => rfl | ⟨3, _⟩ => rfl | ⟨4, _⟩ => rfl

/-- The maximum over a depth pair. -/
theorem maxD (v : FVec Ideal S8x16x2x32x32 .f32) (hφ : FKind.Formats .f32)
    (hacc : (0xFF800000#32 : BitVec 32) = FKind.maximumf.neutral .f32 hφ) (c : Fin 8) (pd : Fin 16) (ph pw : Fin 32) :
    multiReduction .maximumf [2] S8x16x32x32 v 0xFF800000#32 reduces_S8x16x2x32x32_S8x16x32x32 hφ hacc (ix4 c pd ph pw)
      = univ.fold max ⊥ fun dd : Fin 2 => v (ix5 c pd dd ph pw) := by
  refine (Ideal.multiReduction_maximumf_single v _ reduces_S8x16x2x32x32_S8x16x32x32 hφ hacc (ix4 c pd ph pw)).trans ?_
  rw [Ideal.ofBits_def, ofBits_neg_inf]
  refine congrArg (fun f => univ.fold max ⊥ f) (funext fun dd => congrArg v (funext fun a => Fin.ext ?_))
  match a with
  | ⟨0, _⟩ => rfl | ⟨1, _⟩ => rfl | ⟨2, _⟩ => rfl | ⟨3, _⟩ => rfl | ⟨4, _⟩ => rfl

/-- The sum over the column windows. -/
theorem sumW (v : FVec Ideal S8x16x32x32 .f32) (hφ : FKind.Formats .f32)
    (hacc : (0x00000000#32 : BitVec 32) = FKind.add.neutral .f32 hφ) (c : Fin 8) (pd : Fin 16) (ph : Fin 32) :
    multiReduction .add [3] S8x16x32 v 0x00000000#32 reduces_S8x16x32x32_S8x16x32 hφ hacc (ix3 c pd ph)
      = ∑ pw : Fin 32, v (ix4 c pd ph pw) := by
  refine (Ideal.multiReduction_add_single v _ reduces_S8x16x32x32_S8x16x32 hφ hacc (ix3 c pd ph)).trans ?_
  refine Finset.sum_congr rfl fun pw _ => congrArg v (funext fun a => Fin.ext ?_)
  match a with
  | ⟨0, _⟩ => rfl | ⟨1, _⟩ => rfl | ⟨2, _⟩ => rfl | ⟨3, _⟩ => rfl

/-- The sum over the row windows. -/
theorem sumH (v : FVec Ideal S8x16x32 .f32) (hφ : FKind.Formats .f32)
    (hacc : (0x00000000#32 : BitVec 32) = FKind.add.neutral .f32 hφ) (c : Fin 8) (pd : Fin 16) :
    multiReduction .add [2] S8x16 v 0x00000000#32 reduces_S8x16x32_S8x16 hφ hacc (ix2 c pd)
      = ∑ ph : Fin 32, v (ix3 c pd ph) := by
  refine (Ideal.multiReduction_add_single v _ reduces_S8x16x32_S8x16 hφ hacc (ix2 c pd)).trans ?_
  refine Finset.sum_congr rfl fun ph _ => congrArg v (funext fun a => Fin.ext ?_)
  match a with
  | ⟨0, _⟩ => rfl | ⟨1, _⟩ => rfl | ⟨2, _⟩ => rfl

/-- The sum over the depth windows. -/
theorem sumD (v : FVec Ideal S8x16 .f32) (hφ : FKind.Formats .f32)
    (hacc : (0x00000000#32 : BitVec 32) = FKind.add.neutral .f32 hφ) (c : Fin 8) :
    multiReduction .add [1] S8 v 0x00000000#32 reduces_S8x16_S8 hφ hacc (ix1 c)
      = ∑ pd : Fin 16, v (ix2 c pd) := by
  refine (Ideal.multiReduction_add_single v _ reduces_S8x16_S8 hφ hacc (ix1 c)).trans ?_
  refine Finset.sum_congr rfl fun pd _ => congrArg v (funext fun a => Fin.ext ?_)
  match a with
  | ⟨0, _⟩ => rfl | ⟨1, _⟩ => rfl

/-- The sum over the eight channels of a column. -/
theorem sumC (v : FVec Ideal S8x1 .f32) (hφ : FKind.Formats .f32)
    (hacc : (0x00000000#32 : BitVec 32) = FKind.add.neutral .f32 hφ) (z : Fin 1) :
    multiReduction .add [0] S1 v 0x00000000#32 reduces_S8x1_S1 hφ hacc (ix1 z)
      = ∑ c : Fin 8, v (ix2 c z) := by
  refine (Ideal.multiReduction_add_single v _ reduces_S8x1_S1 hφ hacc (ix1 z)).trans ?_
  refine Finset.sum_congr rfl fun c _ => congrArg v (funext fun a => Fin.ext ?_)
  match a with
  | ⟨0, _⟩ => rfl | ⟨1, _⟩ => rfl

/-! ## The body's value -/

/-- The block's window maxima, as the body computes them from the channels it loaded: the maximum over column pairs,
    then row pairs, then depth pairs. -/
def poolVec (x0 : FVec Ideal S1x8x32x64x64 .f32) : FVec Ideal S8x16x32x32 .f32 :=
  multiReduction .maximumf [2] S8x16x32x32
    (shapeCast S8x16x2x32x32
      (multiReduction .maximumf [3] S8x32x32x32
        (shapeCast S8x32x32x2x32
          (multiReduction .maximumf [4] S8x32x64x32
            (shapeCast S8x32x64x32x2 (shapeCast S8x32x64x64 x0 shapeCasts_S1x8x32x64x64_S8x32x64x64)
              shapeCasts_S8x32x64x64_S8x32x64x32x2)
            0xFF800000#32 reduces_S8x32x64x32x2_S8x32x64x32 (.inl rfl) rfl)
          shapeCasts_S8x32x64x32_S8x32x32x2x32)
        0xFF800000#32 reduces_S8x32x32x2x32_S8x32x32x32 (.inl rfl) rfl)
      shapeCasts_S8x32x32x32_S8x16x2x32x32)
    0xFF800000#32 reduces_S8x16x2x32x32_S8x16x32x32 (.inl rfl) rfl

/-- At channel `c` and window (pd, ph, pw) it is that channel's pooled value. -/
theorem poolVec_apply (x0 : FVec Ideal S1x8x32x64x64 .f32) (c : Fin 8) (pd : Fin 16) (ph pw : Fin 32) :
    poolVec x0 (ix4 c pd ph pw) = pooled (fun d h w => x0 (ix5 0 c d h w)) (pd, ph, pw) := by
  unfold poolVec pooled win
  refine (maxD _ _ _ c pd ph pw).trans ?_
  refine congrArg (fun f => univ.fold max ⊥ f) (funext fun dd => ?_)
  refine (cast9 _ c pd dd ph pw).trans ?_
  refine (maxH _ _ _ c (up16 pd dd) ph pw).trans ?_
  refine congrArg (fun f => univ.fold max ⊥ f) (funext fun hh => ?_)
  refine (cast7 _ c (up16 pd dd) ph hh pw).trans ?_
  refine (maxW _ _ _ c (up16 pd dd) (up32 ph hh) pw).trans ?_
  refine congrArg (fun f => univ.fold max ⊥ f) (funext fun ww => ?_)
  refine (cast5 _ c (up16 pd dd) (up32 ph hh) pw ww).trans ?_
  exact cast4 x0 c (up16 pd dd) (up32 ph hh) (up32 pw ww)

/-- Each channel's sum of its window maxima: over columns, then rows, then depths. -/
def chanSums (x0 : FVec Ideal S1x8x32x64x64 .f32) : FVec Ideal S8 .f32 :=
  multiReduction .add [1] S8
    (multiReduction .add [2] S8x16
      (multiReduction .add [3] S8x16x32 (poolVec x0) 0x00000000#32 reduces_S8x16x32x32_S8x16x32 (.inl rfl) rfl)
      0x00000000#32 reduces_S8x16x32_S8x16 (.inl rfl) rfl)
    0x00000000#32 reduces_S8x16_S8 (.inl rfl) rfl

theorem chanSums_apply (x0 : FVec Ideal S1x8x32x64x64 .f32) (c : Fin 8) :
    chanSums x0 (ix1 c)
      = ∑ pd : Fin 16, ∑ ph : Fin 32, ∑ pw : Fin 32, pooled (fun d h w => x0 (ix5 0 c d h w)) (pd, ph, pw) := by
  unfold chanSums
  refine (sumD _ _ _ c).trans (Finset.sum_congr rfl fun pd _ => ?_)
  refine (sumH _ _ _ c pd).trans (Finset.sum_congr rfl fun ph _ => ?_)
  refine (sumW _ _ _ c pd ph).trans (Finset.sum_congr rfl fun pw _ => ?_)
  exact poolVec_apply x0 c pd ph pw

/-- The body's stored value is the running total plus the eight channels' scaled sums and biases. -/
theorem pay2_eq (x0 : FVec Ideal S1x8x32x64x64 .f32) (x1 : FVec Ideal S8x1x1x1 .f32) (acc : FVec Ideal S1x1x1x1 .f32) :
    k0_pay2 (F := Ideal) x0 x1 acc
      = addf (shapeCast S1x1x1x1 acc shapeCasts_S1x1x1x1_S1x1x1x1)
          (shapeCast S1x1x1x1 (shapeCast S1x1 (multiReduction .add [0] S1
            (addf (mulf (shapeCast S8x1 (chanSums x0) shapeCasts_S8_S8x1)
                (broadcast S8x1 (Scalar.ofBits (F := Ideal) .f32 0x38000000#32)))
              (shapeCast S8x1 x1 shapeCasts_S8x1x1x1_S8x1))
            0x00000000#32 reduces_S8x1_S1 (.inl rfl) rfl) shapeCasts_S1_S1x1) shapeCasts_S1x1_S1x1x1x1) := rfl

/-- Read at its one index. -/
theorem pay2_apply (x0 : FVec Ideal S1x8x32x64x64 .f32) (x1 : FVec Ideal S8x1x1x1 .f32) (acc : FVec Ideal S1x1x1x1 .f32)
    (i : S1x1x1x1.Idx) :
    k0_pay2 (F := Ideal) x0 x1 acc i
      = acc i + ∑ c : Fin 8,
          ((∑ pd : Fin 16, ∑ ph : Fin 32, ∑ pw : Fin 32, pooled (fun d h w => x0 (ix5 0 c d h w)) (pd, ph, pw))
            * Ideal.ofBits .f32 0x38000000#32 + x1 (ix4 c 0 0 0)) := by
  rw [pay2_eq, shapeCast_self]
  refine congrArg (acc i + ·) ?_
  refine (cast24 _ i).trans ?_
  refine (cast21 _ (ix2 0 0)).trans ?_
  refine (sumC _ _ _ 0).trans (Finset.sum_congr rfl fun c _ => ?_)
  show (shapeCast S8x1 (chanSums x0) shapeCasts_S8_S8x1 (ix2 c 0)) * Ideal.ofBits .f32 0x38000000#32
      + shapeCast S8x1 x1 shapeCasts_S8x1x1x1_S8x1 (ix2 c 0) = _
  rw [cast14, cast18, chanSums_apply]

end Cert.KernelIdeal.Pay

end
-- ==== Proof.KernelValue.lean ====
/-
  The blocked program's result array as one function of its two argument arrays.

  Image `n` is handled by four consecutive grid points, one per group of eight channels; the block the body loads at
  point `4·n + j` is image `n`'s channels `8·j … 8·j + 7` with their biases. The result's entry for image `n` starts
  at zero at the first of the four points and is added to at each of them, so it ends at zero plus the four groups'
  contributions, added in order.
-/
import proofs.«157001_j25056839205222_2_alg».proof.Proof.Gen.KernelIdeal.Value
import proofs.«157001_j25056839205222_2_alg».proof.Proof.KernelPay

noncomputable section

namespace Cert.KernelIdeal.BlockValue

open Cert.KernelIdeal Cert.KernelIdeal.Gen Idealize.ShloMosaic Idealize.ShloMosaic.TcCoe Idealize.SL.Sem
open Idealize.ShloMosaic.ValueIdx Finset Cert.Pool

variable (m : (ℓ : Loc nD τ sig) → Buf (Elt Ideal) ℓ)

/-- Where the two input blocks sit at each grid point: the image is the point's quotient by four, the channel group its
    remainder; the other block coordinates are zero. -/
theorem idx_facts_in : ∀ t : Fin cfg0.N, win0_0.index t (0 : Fin 5) = t.val / 4 ∧ win0_0.index t (1 : Fin 5) = t.val % 4
    ∧ win0_0.index t (2 : Fin 5) = 0 ∧ win0_0.index t (3 : Fin 5) = 0 ∧ win0_0.index t (4 : Fin 5) = 0
    ∧ win0_1.index t (0 : Fin 4) = t.val % 4 ∧ win0_1.index t (1 : Fin 4) = 0 ∧ win0_1.index t (2 : Fin 4) = 0
    ∧ win0_1.index t (3 : Fin 4) = 0 :=
  (by decide +kernel : ∀ t : Fin grid0.N, _)

/-- The image block at point `4·n + j` is image `n`'s channel group `j`. -/
theorem iblk0_apply (c : Dev nD) (t : Fin cfg0.N) (n : Fin 16) (j : Fin 4) (ht : t.val = 4 * n.val + j.val)
    (cc : Fin 8) (d : Fin 32) (h w : Fin 64) :
    iblk m c 0 t (ix5 0 cc d h w) = m ((c : Thread nD τ).loc main_arg0) (ix5 n (ch j cc) d h w) := by
  show V m c main_arg0 (((cfg0.win 0).blk t).view.emb (ix5 0 cc d h w)) = V m c main_arg0 (ix5 n (ch j cc) d h w)
  refine congrArg _ (funext fun a => Fin.ext ?_)
  obtain ⟨e0, e1, e2, e3, e4, -⟩ := idx_facts_in t
  have hj := j.isLt
  match a with
  | ⟨0, _⟩ => show win0_0.index t (0 : Fin 5) * 1 + 1 * 0 = n.val; omega
  | ⟨1, _⟩ => show win0_0.index t (1 : Fin 5) * 8 + 1 * cc.val = j.val * 8 + cc.val; omega
  | ⟨2, _⟩ => show win0_0.index t (2 : Fin 5) * 32 + 1 * d.val = d.val; omega
  | ⟨3, _⟩ => show win0_0.index t (3 : Fin 5) * 64 + 1 * h.val = h.val; omega
  | ⟨4, _⟩ => show win0_0.index t (4 : Fin 5) * 64 + 1 * w.val = w.val; omega

/-- The bias block at point `4·n + j` is channel group `j`'s biases. -/
theorem iblk1_apply (c : Dev nD) (t : Fin cfg0.N) (n : Fin 16) (j : Fin 4) (ht : t.val = 4 * n.val + j.val) (cc : Fin 8) :
    iblk m c 1 t (ix4 cc 0 0 0) = m ((c : Thread nD τ).loc main_arg1) (ix4 (ch j cc) 0 0 0) := by
  show V m c main_arg1 (((cfg0.win 1).blk t).view.emb (ix4 cc 0 0 0)) = V m c main_arg1 (ix4 (ch j cc) 0 0 0)
  refine congrArg _ (funext fun a => Fin.ext ?_)
  obtain ⟨-, -, -, -, -, e5, e6, e7, e8⟩ := idx_facts_in t
  have hj := j.isLt
  match a with
  | ⟨0, _⟩ => show win0_1.index t (0 : Fin 4) * 8 + 1 * cc.val = j.val * 8 + cc.val; omega
  | ⟨1, _⟩ => show win0_1.index t (1 : Fin 4) * 1 + 1 * 0 = 0; omega
  | ⟨2, _⟩ => show win0_1.index t (2 : Fin 4) * 1 + 1 * 0 = 0; omega
  | ⟨3, _⟩ => show win0_1.index t (3 : Fin 4) * 1 + 1 * 0 = 0; omega

/-- Image `n` of the first argument, by channel, depth, row and column. -/
def image (c : Dev nD) (n : Fin 16) : Fin 32 → Fin 32 → Fin 64 → Fin 64 → EReal :=
  fun cc d h w => m ((c : Thread nD τ).loc main_arg0) (ix5 n cc d h w)

/-- The second argument, by channel. -/
def biases (c : Dev nD) : Fin 32 → EReal := fun cc => m ((c : Thread nD τ).loc main_arg1) (ix4 cc 0 0 0)

/-- One run of the body at point `4·n + j` adds channel group `j` of image `n` to the running total. -/
theorem body_apply (c : Dev nD) (t : Fin cfg0.N) (n : Fin 16) (j : Fin 4) (ht : t.val = 4 * n.val + j.val)
    (acc : FVec Ideal S1x1x1x1 .f32) (y : S1x1x1x1.Idx) :
    k0_pay2 (F := Ideal) (iblk m c 0 t) (iblk m c 1 t) acc y = acc y + group (image m c n) (biases m c) j := by
  refine (Pay.pay2_apply (iblk m c 0 t) (iblk m c 1 t) acc y).trans ?_
  refine congrArg (acc y + ·) (Finset.sum_congr rfl fun cc _ => ?_)
  have hX : (fun d h w => iblk m c 0 t (ix5 0 cc d h w)) = image m c n (ch j cc) :=
    funext fun d => funext fun h => funext fun w => iblk0_apply m c t n j ht cc d h w
  have hB : iblk m c 1 t (ix4 cc 0 0 0) = biases m c (ch j cc) := iblk1_apply m c t n j ht cc
  exact congrArg₂ (fun X B => (∑ pd : Fin 16, ∑ ph : Fin 32, ∑ pw : Fin 32, pooled X (pd, ph, pw))
    * Ideal.ofBits .f32 0x38000000#32 + B) hX hB

/-- The fold over the four points of image `n`: zero, then the four channel groups added in order. -/
theorem fold_apply (c : Dev nD) (n : Fin 16) (b : ℕ) (hb : b = 4 * n.val) (h : b + 3 < cfg0.N) (y : S1x1x1x1.Idx) :
    Pipeline.accAt (Value.reset2 m c) (Value.step2 m c) b 3 h y = blocked (image m c n) (biases m c) := by
  subst hb
  show Value.step2 m c (4 * n.val + 3) _ (Value.step2 m c (4 * n.val + 2) _ (Value.step2 m c (4 * n.val + 1) _
    (Value.reset2 m c (4 * n.val) _))) y = _
  unfold Value.step2 Value.reset2 blocked
  rw [body_apply m c ⟨4 * n.val + 3, _⟩ n 3 rfl, body_apply m c ⟨4 * n.val + 2, _⟩ n 2 rfl,
    body_apply m c ⟨4 * n.val + 1, _⟩ n 1 rfl, body_apply m c ⟨4 * n.val, _⟩ n 0 rfl]
  rfl

/-- The result array's entry for image `n`. -/
theorem G2_apply (c : Dev nD) (n : Fin 16) :
    Value.G2 (F := Ideal) m c (ix4 n 0 0 0) = blocked (image m c n) (biases m c) := by
  have hN : cfg0.N = 64 := N_0
  have hr : Value.run2Of (ix4 n 0 0 0) = n.val := by
    show 1 * (n.val / 1 - 0) + 1 * (0 / 1 - 0) + 1 * (0 / 1 - 0) + 1 * (0 / 1 - 0) = n.val
    omega
  have hlt : 4 * Value.run2Of (ix4 n 0 0 0) + 3 < cfg0.N := by rw [hr, hN]; have := n.isLt; omega
  unfold Value.G2
  rw [dif_pos hlt]
  exact fold_apply m c n _ (by rw [hr]) hlt _

end Cert.KernelIdeal.BlockValue

end
-- ==== Proof.RefRead.lean ====
/-
  The whole-array program's result read at an index.

  It halves every entry, re-lays the array so that each 2×2×2 window's eight entries sit on three axes of their own,
  takes the maximum over those three axes at once, adds the window maxima of each image and channel over the three
  window axes at once, divides by 16384, adds the channel's bias and adds the channels. The two reductions over three
  axes are read by listing the source indices they range over: eight for a window, 16·32·32 for a channel.
-/
import proofs.«157001_j25056839205222_2_alg».proof.Proof.Gen.ReferenceIdeal.Read
import proofs.«157001_j25056839205222_2_alg».proof.Proof.PoolLaw
import Idealize.ShloMosaic.PureOps.Ideal.Laws
import Idealize.ShloMosaic.Lib.ValueIdx
import Idealize.ShloMosaic.Lib.IdealHost

noncomputable section

namespace Cert.ReferenceIdeal.RefRead

open Cert.ReferenceIdeal Cert.ReferenceIdeal.Gen Cert.ReferenceIdeal.Read Idealize.ShloMosaic Idealize.ShloMosaic.ValueIdx
open Finset Cert.Pool Cert.LibFolds

/-! ## Indices of the re-laid array -/

/-- A rank-8 index from its coordinates. -/
abbrev ix8 {n0 n1 n2 n3 n4 n5 n6 n7 : Nat} (a0 : Fin n0) (a1 : Fin n1) (a2 : Fin n2) (a3 : Fin n3) (a4 : Fin n4)
    (a5 : Fin n5) (a6 : Fin n6) (a7 : Fin n7) : (⟨8, ![n0, n1, n2, n3, n4, n5, n6, n7]⟩ : Shape).Idx :=
  fun f => match f with
    | ⟨0, _⟩ => a0 | ⟨1, _⟩ => a1 | ⟨2, _⟩ => a2 | ⟨3, _⟩ => a3 | ⟨4, _⟩ => a4 | ⟨5, _⟩ => a5 | ⟨6, _⟩ => a6 | ⟨7, _⟩ => a7

theorem numel7 : (⟨7, fun a => (![16, 32, 16, 2, 32, 2, 32, 2] : Fin 8 → Nat) a.succ⟩ : Shape).numel = 4194304 := by decide
theorem numel6 : (⟨6, fun a => (fun a : Fin 7 => (![16, 32, 16, 2, 32, 2, 32, 2] : Fin 8 → Nat) a.succ) a.succ⟩ : Shape).numel
    = 131072 := by decide
theorem numel5 : (⟨5, fun a => (fun a : Fin 6 => (fun a : Fin 7 => (![16, 32, 16, 2, 32, 2, 32, 2] : Fin 8 → Nat) a.succ) a.succ) a.succ⟩ : Shape).numel
    = 8192 := by decide

/-- The row-major position of an index of the re-laid array. -/
theorem rowMajor8 (i : S16x32x16x2x32x2x32x2.Idx) :
    (S16x32x16x2x32x2x32x2.rowMajor i).val
      = (((((((i 0).val * 32 + (i 1).val) * 16 + (i 2).val) * 2 + (i 3).val) * 32 + (i 4).val) * 2 + (i 5).val) * 32
          + (i 6).val) * 2 + (i 7).val := by
  rw [Shape.rowMajor_val_succ, Shape.rowMajor_val_succ, Shape.rowMajor_val_succ, Shape.rowMajor_val_five,
    numel7, numel6, numel5]
  show (i 0).val * 4194304 + ((i 1).val * 131072 + ((i 2).val * 8192
      + (((((i 3).val * 32 + (i 4).val) * 2 + (i 5).val) * 32 + (i 6).val) * 2 + (i 7).val))) = _
  omega

/-! ## The halved, re-laid array -/

/-- Every entry is halved. -/
theorem v1_apply (x0 : FVec Ideal S16x32x32x64x64 .f32) (i : S16x32x32x64x64.Idx) :
    val_main_v1 (F := Ideal) x0 i = Ideal.div (x0 i) (Ideal.ofBits .f32 0x40000000#32) := by
  rw [val_main_v1_apply, val_main_v0_apply, val_main_cst_apply]; rfl

/-- Entry (dd, hh, ww) of window (pd, ph, pw) of image `n`, channel `c`. -/
theorem v2_apply (x0 : FVec Ideal S16x32x32x64x64 .f32) (n : Fin 16) (c : Fin 32) (pd : Fin 16) (dd : Fin 2) (ph : Fin 32)
    (hh : Fin 2) (pw : Fin 32) (ww : Fin 2) :
    val_main_v2 (F := Ideal) x0 (ix8 n c pd dd ph hh pw ww)
      = Ideal.div (x0 (ix5 n c (up16 pd dd) (up32 ph hh) (up32 pw ww))) (Ideal.ofBits .f32 0x40000000#32) := by
  unfold val_main_v2
  refine (shapeCast_apply _ shapeCasts_S16x32x32x64x64_S16x32x16x2x32x2x32x2 (ix8 n c pd dd ph hh pw ww)
    (ix5 n c (up16 pd dd) (up32 ph hh) (up32 pw ww)) ?_).trans (v1_apply x0 _)
  rewrite [rowMajor8, Shape.rowMajor_val_five]
  show (((n.val * 32 + c.val) * 32 + (2 * pd.val + dd.val)) * 64 + (2 * ph.val + hh.val)) * 64 + (2 * pw.val + ww.val)
    = ((((((n.val * 32 + c.val) * 16 + pd.val) * 2 + dd.val) * 32 + ph.val) * 2 + hh.val) * 32 + pw.val) * 2 + ww.val
  omega

/-! ## The maximum over a window's three axes at once -/

theorem v3_apply (x0 : FVec Ideal S16x32x32x64x64 .f32) (n : Fin 16) (c : Fin 32) (pd : Fin 16) (ph pw : Fin 32) :
    val_main_v3 (F := Ideal) x0 (ix5 n c pd ph pw)
      = Ideal.div (pooled (fun d h w => x0 (ix5 n c d h w)) (pd, ph, pw)) (Ideal.ofBits .f32 0x40000000#32) := by
  unfold val_main_v3
  rw [Host.reduce_eq_fold]
  rw [fold_fibre FloatOps.maximumf _ reducesTo_S16x32x16x2x32x2x32x2_S16x32x16x32x32_d3_5_7.drop (ix5 n c pd ph pw)
    (fun k : Fin 2 × Fin 2 × Fin 2 => ix8 n c pd k.1 ph k.2.1 pw k.2.2)]
  · simp only [v2_apply]
    rw [val_main_cst_0_apply, Ideal.ofBits_def, ofBits_neg_inf]
    exact fold_halved fun dd hh ww => x0 (ix5 n c (up16 pd dd) (up32 ph hh) (up32 pw ww))
  · intro k k' hk
    have h3 := congrFun hk 3
    have h5 := congrFun hk 5
    have h7 := congrFun hk 7
    exact Prod.ext h3 (Prod.ext h5 h7)
  · intro k
    funext b
    apply Fin.ext
    match b with
    | ⟨0, _⟩ => exact reducesTo_S16x32x16x2x32x2x32x2_S16x32x16x32x32_d3_5_7.drop_apply_val_of_eq _ 0 0
    | ⟨1, _⟩ => exact reducesTo_S16x32x16x2x32x2x32x2_S16x32x16x32x32_d3_5_7.drop_apply_val_of_eq _ 1 1
    | ⟨2, _⟩ => exact reducesTo_S16x32x16x2x32x2x32x2_S16x32x16x32x32_d3_5_7.drop_apply_val_of_eq _ 2 2
    | ⟨3, _⟩ => exact reducesTo_S16x32x16x2x32x2x32x2_S16x32x16x32x32_d3_5_7.drop_apply_val_of_eq _ 3 4
    | ⟨4, _⟩ => exact reducesTo_S16x32x16x2x32x2x32x2_S16x32x16x32x32_d3_5_7.drop_apply_val_of_eq _ 4 6
  · intro i hi
    refine ⟨(i 3, i 5, i 7), funext fun a => Fin.ext ?_⟩
    have d0 := reducesTo_S16x32x16x2x32x2x32x2_S16x32x16x32x32_d3_5_7.drop_apply_val_of_eq i 0 0
    have d1 := reducesTo_S16x32x16x2x32x2x32x2_S16x32x16x32x32_d3_5_7.drop_apply_val_of_eq i 1 1
    have d2 := reducesTo_S16x32x16x2x32x2x32x2_S16x32x16x32x32_d3_5_7.drop_apply_val_of_eq i 2 2
    have d3 := reducesTo_S16x32x16x2x32x2x32x2_S16x32x16x32x32_d3_5_7.drop_apply_val_of_eq i 3 4
    have d4 := reducesTo_S16x32x16x2x32x2x32x2_S16x32x16x32x32_d3_5_7.drop_apply_val_of_eq i 4 6
    rw [hi] at d0 d1 d2 d3 d4
    match a with
    | ⟨0, _⟩ => exact d0
    | ⟨1, _⟩ => exact d1
    | ⟨2, _⟩ => exact d2
    | ⟨3, _⟩ => rfl
    | ⟨4, _⟩ => exact d3
    | ⟨5, _⟩ => rfl
    | ⟨6, _⟩ => exact d4
    | ⟨7, _⟩ => rfl

/-! ## The sum over a channel's three window axes at once -/

theorem v4_apply (x0 : FVec Ideal S16x32x32x64x64 .f32) (n : Fin 16) (c : Fin 32) :
    val_main_v4 (F := Ideal) x0 (ix2 n c)
      = Ideal.ofBits .f32 0x00000000#32 + ∑ k : Fin 16 × Fin 32 × Fin 32,
          Ideal.div (pooled (fun d h w => x0 (ix5 n c d h w)) k) (Ideal.ofBits .f32 0x40000000#32) := by
  unfold val_main_v4
  rw [hostReduceAdd_apply]
  unfold Ideal.hostReduceAdd
  rw [sum_fibre reducesTo_S16x32x16x32x32_S16x32_d2_3_4.drop (ix2 n c)
    (fun k : Fin 16 × Fin 32 × Fin 32 => ix5 n c k.1 k.2.1 k.2.2)]
  · simp only [v3_apply]
    rfl
  · intro k k' hk
    have h2 := congrFun hk 2
    have h3 := congrFun hk 3
    have h4 := congrFun hk 4
    exact Prod.ext h2 (Prod.ext h3 h4)
  · intro k
    funext b
    apply Fin.ext
    match b with
    | ⟨0, _⟩ => exact reducesTo_S16x32x16x32x32_S16x32_d2_3_4.drop_apply_val_of_eq _ 0 0
    | ⟨1, _⟩ => exact reducesTo_S16x32x16x32x32_S16x32_d2_3_4.drop_apply_val_of_eq _ 1 1
  · intro i hi
    refine ⟨(i 2, i 3, i 4), funext fun a => Fin.ext ?_⟩
    have d0 := reducesTo_S16x32x16x32x32_S16x32_d2_3_4.drop_apply_val_of_eq i 0 0
    have d1 := reducesTo_S16x32x16x32x32_S16x32_d2_3_4.drop_apply_val_of_eq i 1 1
    rw [hi] at d0 d1
    match a with
    | ⟨0, _⟩ => exact d0
    | ⟨1, _⟩ => exact d1
    | ⟨2, _⟩ => rfl
    | ⟨3, _⟩ => rfl
    | ⟨4, _⟩ => rfl

/-! ## The result -/

/-- Image `n` of the first argument, by channel, depth, row and column. -/
def image (x0 : FVec Ideal S16x32x32x64x64 .f32) (n : Fin 16) : Fin 32 → Fin 32 → Fin 64 → Fin 64 → EReal :=
  fun c d h w => x0 (ix5 n c d h w)

/-- The second argument, by channel. -/
def biases (x1 : FVec Ideal S32x1x1x1 .f32) : Fin 32 → EReal := fun c => x1 (ix4 c 0 0 0)

/-- The result's entry for image `n`. -/
theorem result_apply (x0 : FVec Ideal S16x32x32x64x64 .f32) (x1 : FVec Ideal S32x1x1x1 .f32) (n : Fin 16) :
    val_main_v11 (F := Ideal) x0 x1 (ix4 n 0 0 0) = whole (image x0 n) (biases x1) := by
  rw [val_main_v11_apply, val_main_v10_apply, val_main_cst_3_apply]
  unfold whole
  refine congrArg (Ideal.ofBits .f32 0x00000000#32 + ·) (Finset.sum_congr rfl fun c _ => ?_)
  have hi : idx_main_v10 (idx_main_v11 (ix4 n 0 0 0)) c = ix2 n c := funext fun a => Fin.ext (by
    match a with
    | ⟨0, _⟩ => show ((n.val * 1 + 0) * 1 + 0) * 1 + 0 = n.val; omega
    | ⟨1, _⟩ => rfl)
  have hb : idx_main_v7 (idx_main_v8 (ix2 n c)) = ix4 c 0 0 0 := funext fun a => Fin.ext (by
    match a with
    | ⟨0, _⟩ => show (0 * 32 + c.val) / 1 = c.val; omega
    | ⟨1, _⟩ => rfl
    | ⟨2, _⟩ => rfl
    | ⟨3, _⟩ => rfl)
  rw [hi, val_main_v9_apply, val_main_v6_apply, val_main_v5_apply, val_main_cst_2_apply, val_main_v8_apply,
    val_main_v7_apply, hb, v4_apply]
  rfl

end Cert.ReferenceIdeal.RefRead

end
-- ==== Proof.Finite.lean ====
/-
  The precondition read back: every entry of the first argument is a real number.

  The precondition says that the absolute value of every entry of both arguments is below +∞. An extended real
  whose absolute value is below +∞ is neither +∞ nor −∞.
-/
import proofs.«157001_j25056839205222_2_alg».proof.Pre_finite_inputs
import proofs.«157001_j25056839205222_2_alg».proof.Proof.LibFolds
import Idealize.ShloMosaic.Lib.ReduceAll
import Idealize.ShloMosaic.Lib.ValueIdx
import Idealize.ShloMosaic.PureOps.Ideal

noncomputable section

namespace Cert.Pre_finite_inputs.Finite

open Cert.Pre_finite_inputs Idealize.ShloMosaic Cert.LibFolds

/-- The bound the precondition compares against is +∞. -/
theorem ofBits_inf : Ideal.ofBits .f32 0x7F800000#32 = ⊤ := by
  simp [Ideal.ofBits, Ideal.ieee]

/-- An extended real whose absolute value is below +∞ is a real number. -/
theorem isReal_of_abs_lt (x : EReal) (h : Ideal.cmp .olt (max x (-x)) ⊤ = 1#1) : IsReal x := by
  induction x using EReal.rec with
  | bot => simp [Ideal.cmp] at h
  | top => simp [Ideal.cmp] at h
  | coe r => exact ⟨r, rfl⟩

instance : Subsingleton S_.Idx := ⟨fun _ _ => funext fun d => d.elim0⟩

variable [Facts]

/-- Under the precondition every entry of the first argument is a real number. -/
theorem isReal_arg0 (a0 : FVec Ideal S16x32x32x64x64 .f32) (a1 : FVec Ideal S32x1x1x1 .f32)
    (h : fn (F := Ideal) a0 a1 = fun _ => 1#1) (i : S16x32x32x64x64.Idx) : IsReal (a0 i) := by
  have h0 := congrFun h ValueIdx.ix0
  dsimp only [fn] at h0
  have h1 := (IntOp.andi_eq_one.1 h0).1
  have h2 := Host.reduce_andi_all _ _ _ _ _ h1 i
  have h3 : Ideal.cmp .olt (max (a0 i) (-(a0 i))) (Ideal.ofBits .f32 0x7F800000#32) = 1#1 := h2
  rw [ofBits_inf] at h3
  exact isReal_of_abs_lt _ h3

end Cert.Pre_finite_inputs.Finite

end
-- ==== Proof.lean ====
/-
  Division by two, 2×2×2 max pooling, the mean over the pooled positions, a per-channel bias and the sum over channels,
  computed two ways on f32[16, 32, 32, 64, 64]: block by block (an image's eight channels at a time, the maximum taken
  one axis at a time, the division by two and by the 16384 pooled positions folded into one factor 2⁻¹⁵ applied to each
  channel's sum, the four channel groups of an image added into the result one after the other), and on whole arrays
  (every entry halved first, the maximum over a window's three axes at once, the sum over the pooled positions divided
  by 16384, the channels added at once).

  Read as exact extended reals the two results are one function of the arguments when every entry is a real number:
  halving is monotone, so it commutes with the maximum (no finiteness needed); each window's maximum is then a real
  number, and for real numbers (Σ p/2) / 16384 = (Σ p) · 2⁻¹⁵; regrouping the 32 channels as four groups of eight is
  associativity of addition. The precondition gives that every entry is real.

  Each program's run — termination, no fault, the arguments unchanged, and the result array named — is imported from
  the generated modules; what is proved here is the equality of the two result arrays.
-/
import proofs.«157001_j25056839205222_2_alg».proof.Defs
import proofs.«157001_j25056839205222_2_alg».proof.Proof.Gen.Kernel.Frame
import proofs.«157001_j25056839205222_2_alg».proof.Proof.Gen.KernelIdeal.Value
import proofs.«157001_j25056839205222_2_alg».proof.Proof.Gen.Pre_finite_inputs
import proofs.«157001_j25056839205222_2_alg».proof.Proof.Gen.ReferenceIdeal.Run
import proofs.«157001_j25056839205222_2_alg».proof.Proof.Gen.ReferenceIdeal.Read
import proofs.«157001_j25056839205222_2_alg».proof.Proof.KernelValue
import proofs.«157001_j25056839205222_2_alg».proof.Proof.RefRead
import proofs.«157001_j25056839205222_2_alg».proof.Proof.Finite
import Idealize.ShloMosaic.Adequacy
import Idealize.ShloMosaic.Init

noncomputable section

namespace Cert.Proof

open Idealize.ShloMosaic Idealize.SL.Sem Idealize.ShloMosaic.ValueIdx

theorem frame_KernelIdeal : frame_KernelIdeal := fun m ρ _ =>
  (θ_run Cert.KernelIdeal.defs _ _).mono (fun _ h c => (h c).2) (Cert.KernelIdeal.Value.run (F := Ideal) m ρ)

theorem frame_ReferenceIdeal : frame_ReferenceIdeal := fun m ρ _ =>
  (θ_run Cert.ReferenceIdeal.defs _ _).mono (fun _ h c => (h c).2) (Cert.ReferenceIdeal.Value.run (F := Ideal) m ρ)

/-- Every index of the result array is (n, 0, 0, 0) for an image `n`. -/
theorem result_index (i : Cert.KernelIdeal.S16x1x1x1.Idx) : ∃ n : Fin 16, i = ix4 n 0 0 0 :=
  ⟨i 0, funext fun a => Fin.ext (by
    match a with
    | ⟨0, _⟩ => rfl
    | ⟨1, _⟩ => have h : (i 1).val < 1 := (i 1).isLt; show (i 1).val = 0; omega
    | ⟨2, _⟩ => have h : (i 2).val < 1 := (i 2).isLt; show (i 2).val = 0; omega
    | ⟨3, _⟩ => have h : (i 3).val < 1 := (i 3).isLt; show (i 3).val = 0; omega)⟩

/-- On arguments of real numbers the whole-array program's result is the blocked program's, entry by entry. -/
theorem result_eq (m : (ℓ : Loc Cert.KernelIdeal.nD Cert.KernelIdeal.τ Cert.KernelIdeal.sig) → Buf (Elt Ideal) ℓ)
    (hpre : Pre_KernelIdeal m) (c : Dev Cert.KernelIdeal.nD) :
    Cert.ReferenceIdeal.Read.val_main_v11 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
      = Cert.KernelIdeal.Value.G2 (F := Ideal) m c := by
  funext i
  obtain ⟨n, rfl⟩ := result_index i
  rw [Cert.ReferenceIdeal.RefRead.result_apply, Cert.KernelIdeal.BlockValue.G2_apply]
  exact (Cert.Pool.blocked_eq_whole _ _ fun cc d h w =>
    Cert.Pre_finite_inputs.Finite.isReal_arg0 _ _ (hpre c) (ix5 n cc d h w)).symm

theorem algebraic_KernelIdeal_ReferenceIdeal : algebraic_KernelIdeal_ReferenceIdeal := by
  intro m ρ m' ρ' hpre hagree
  refine ⟨fun c => Cert.KernelIdeal.Value.G2 (F := Ideal) m c, Cert.KernelIdeal.Value.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact result_eq m hpre c

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
